-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50x97 : Shape := ⟨3, ![16384, 50, 97]⟩
abbrev S16384x10x97 : Shape := ⟨3, ![16384, 10, 97]⟩
abbrev S16384x20x97 : Shape := ⟨3, ![16384, 20, 97]⟩
abbrev S_ : Shape := ⟨0, ![]⟩

class Facts : Prop where
  bcast_S_S16384x50x97 : S_.BroadcastsInDim S16384x50x97 (![] : Fin 0 → Fin S16384x50x97.rank)
  reducesTo_S16384x50x97_S_d0_1_2 : S16384x50x97.ReducesTo [0, 1, 2] S_
  h_S_ : 0 < S_.numel
  bcast_S_S16384x10x97 : S_.BroadcastsInDim S16384x10x97 (![] : Fin 0 → Fin S16384x10x97.rank)
  reducesTo_S16384x10x97_S_d0_1_2 : S16384x10x97.ReducesTo [0, 1, 2] S_
  bcast_S_S16384x20x97 : S_.BroadcastsInDim S16384x20x97 (![] : Fin 0 → Fin S16384x20x97.rank)
  reducesTo_S16384x20x97_S_d0_1_2 : S16384x20x97.ReducesTo [0, 1, 2] S_

variable [Facts]

def fn {F : FTy → Type} [FloatOps F] (main_arg0 : FVec F S16384x50x97 .f32) (main_arg1 : FVec F S16384x10x97 .f32) (main_arg2 : FVec F S16384x20x97 .f32) : IVec S_ 1 :=
  let main_v0 : FVec F S16384x50x97 .f32 := Host.absf main_arg0
  let main_cst : FVec F S_ .f32 := constant S_ .f32 0x7F800000#32
  let main_v1 : FVec F S16384x50x97 .f32 := broadcastInDim S16384x50x97 ![] bcast_S_S16384x50x97 main_cst
  let main_v2 : IVec S16384x50x97 1 := cmpf .olt main_v0 main_v1
  let main_c : IVec S_ 1 := constantI S_ 1 1#1
  let main_v3 : IVec S_ 1 := (fun x v => Host.reduce IntOp.andi x v reducesTo_S16384x50x97_S_d0_1_2 h_S_) main_v2 main_c
  let main_v4 : FVec F S16384x10x97 .f32 := Host.absf main_arg1
  let main_cst_0 : FVec F S_ .f32 := constant S_ .f32 0x7F800000#32
  let main_v5 : FVec F S16384x10x97 .f32 := broadcastInDim S16384x10x97 ![] bcast_S_S16384x10x97 main_cst_0
  let main_v6 : IVec S16384x10x97 1 := cmpf .olt main_v4 main_v5
  let main_c_1 : IVec S_ 1 := constantI S_ 1 1#1
  let main_v7 : IVec S_ 1 := (fun x v => Host.reduce IntOp.andi x v reducesTo_S16384x10x97_S_d0_1_2 h_S_) main_v6 main_c_1
  let main_v8 : IVec S_ 1 := andi main_v3 main_v7
  let main_v9 : FVec F S16384x20x97 .f32 := Host.absf main_arg2
  let main_cst_2 : FVec F S_ .f32 := constant S_ .f32 0x7F800000#32
  let main_v10 : FVec F S16384x20x97 .f32 := broadcastInDim S16384x20x97 ![] bcast_S_S16384x20x97 main_cst_2
  let main_v11 : IVec S16384x20x97 1 := cmpf .olt main_v9 main_v10
  let main_c_3 : IVec S_ 1 := constantI S_ 1 1#1
  let main_v12 : IVec S_ 1 := (fun x v => Host.reduce IntOp.andi x v reducesTo_S16384x20x97_S_d0_1_2 h_S_) main_v11 main_c_3
  let main_v13 : IVec S_ 1 := andi main_v8 main_v12
  main_v13
-- ==== Kernel.lean ====
abbrev S16384x50x97 : Shape := ⟨3, ![16384, 50, 97]⟩
abbrev S16384x10x97 : Shape := ⟨3, ![16384, 10, 97]⟩
abbrev S16384x20x97 : Shape := ⟨3, ![16384, 20, 97]⟩
abbrev S16384 : Shape := ⟨1, ![16384]⟩
abbrev S256x50x97 : Shape := ⟨3, ![256, 50, 97]⟩
abbrev S256x10x97 : Shape := ⟨3, ![256, 10, 97]⟩
abbrev S256x20x97 : Shape := ⟨3, ![256, 20, 97]⟩
abbrev S256 : Shape := ⟨1, ![256]⟩
abbrev S256x97 : Shape := ⟨2, ![256, 97]⟩
abbrev S256x50x32 : Shape := ⟨3, ![256, 50, 32]⟩
abbrev S256x10x32 : Shape := ⟨3, ![256, 10, 32]⟩
abbrev S256x20x32 : Shape := ⟨3, ![256, 20, 32]⟩
abbrev S256x32 : Shape := ⟨2, ![256, 32]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x50x97, .f32⟩
  | .hbm, ⟨1, _⟩ => ⟨S16384x10x97, .f32⟩
  | .hbm, ⟨2, _⟩ => ⟨S16384x20x97, .f32⟩
  | .hbm, ⟨3, _⟩ => ⟨S16384, .f32⟩
  | .local _ .vmem, ⟨0, _⟩ => ⟨S256x50x97, .f32⟩
  | .local _ .vmem, ⟨1, _⟩ => ⟨S256x50x97, .f32⟩
  | .local _ .vmem, ⟨2, _⟩ => ⟨S256x10x97, .f32⟩
  | .local _ .vmem, ⟨3, _⟩ => ⟨S256x10x97, .f32⟩
  | .local _ .vmem, ⟨4, _⟩ => ⟨S256x20x97, .f32⟩
  | .local _ .vmem, ⟨5, _⟩ => ⟨S256x20x97, .f32⟩
  | .local _ .vmem, ⟨6, _⟩ => ⟨S256, .f32⟩
  | .local _ .vmem, ⟨7, _⟩ => ⟨S256, .f32⟩
  | _, _ => ⟨S16384x50x97, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x50x97 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10x97 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x20x97 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x50x97_S256x50x97_0_0_0 : ∀ a, (![0, 0, 0] : Fin 3 → Nat) a + S256x50x97.size a ≤ S256x50x97.size a
  h_S256x50x97 : 0 < S256x50x97.numel
  inb_S256x10x97_S256x10x97_0_0_0 : ∀ a, (![0, 0, 0] : Fin 3 → Nat) a + S256x10x97.size a ≤ S256x10x97.size a
  h_S256x10x97 : 0 < S256x10x97.numel
  inb_S256x20x97_S256x20x97_0_0_0 : ∀ a, (![0, 0, 0] : Fin 3 → Nat) a + S256x20x97.size a ≤ S256x20x97.size a
  h_S256x20x97 : 0 < S256x20x97.numel
  reduces_S256x50x97_S256x97 : S256x50x97.Reduces [1] S256x97
  reduces_S256x10x97_S256x97 : S256x10x97.Reduces [1] S256x97
  reduces_S256x20x97_S256x97 : S256x20x97.Reduces [1] S256x97
  inb_S256x50x97_S256x50x32_0_0_0 : ∀ a, (![0, 0, 0] : Fin 3 → Nat) a + S256x50x32.size a ≤ S256x50x97.size a
  h_S256x50x32 : 0 < S256x50x32.numel
  inb_S256x10x97_S256x10x32_0_0_32 : ∀ a, (![0, 0, 32] : Fin 3 → Nat) a + S256x10x32.size a ≤ S256x10x97.size a
  h_S256x10x32 : 0 < S256x10x32.numel
  inb_S256x20x97_S256x20x32_0_0_64 : ∀ a, (![0, 0, 64] : Fin 3 → Nat) a + S256x20x32.size a ≤ S256x20x97.size a
  h_S256x20x32 : 0 < S256x20x32.numel
  reduces_S256x50x32_S256x32 : S256x50x32.Reduces [1] S256x32
  reduces_S256x32_S256 : S256x32.Reduces [1] S256
  shapeCasts_S256_S256x1 : S256.ShapeCasts S256x1
  reduces_S256x10x32_S256x32 : S256x10x32.Reduces [1] S256x32
  reduces_S256x20x32_S256x32 : S256x20x32.Reduces [1] S256x32
  slices_S256x97_o0_32_S256x32 : S256x97.Slices ![0, 32] S256x32
  slices_S256x97_o0_0_S256x32 : S256x97.Slices ![0, 0] S256x32
  slices_S256x97_o0_64_S256x32 : S256x97.Slices ![0, 64] S256x32
  slices_S256x97_o0_96_S256x1 : S256x97.Slices ![0, 96] S256x1
  shapeCasts_S256x1_S256 : S256x1.ShapeCasts S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x50x97.size a ≤ S16384x50x97.size a
  hwx0_0 : ∀ i : grid0.Coords, EltTy.bits .f32 = 32 ∨ (Rect.block (s := S16384x50x97) S256x50x97.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x10x97.size a ≤ S16384x10x97.size a
  hwx0_1 : ∀ i : grid0.Coords, EltTy.bits .f32 = 32 ∨ (Rect.block (s := S16384x10x97) S256x10x97.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x20x97.size a ≤ S16384x20x97.size a
  hwx0_2 : ∀ i : grid0.Coords, EltTy.bits .f32 = 32 ∨ (Rect.block (s := S16384x20x97) S256x20x97.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S16384.size a
  hwx0_3 : ∀ i : grid0.Coords, EltTy.bits .f32 = 32 ∨ (Rect.block (s := S16384) S256.size (cc0_transform_3 i) (hinb0_3 i)).WholeWords (EltTy.packing .f32)

variable [Facts₀]

abbrev win0_0 : Pipeline.Window sig grid0 :=
  Pipeline.Window.ofSpec (Memref.whole main_arg0) S256x50x97.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x10x97.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x20x97.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x50x97 : Shape := ⟨3, ![16384, 50, 97]⟩
abbrev S16384x10x97 : Shape := ⟨3, ![16384, 10, 97]⟩
abbrev S16384x20x97 : Shape := ⟨3, ![16384, 20, 97]⟩
abbrev S_ : Shape := ⟨0, ![]⟩
abbrev S16384x97 : Shape := ⟨2, ![16384, 97]⟩
abbrev S16384x50x32 : Shape := ⟨3, ![16384, 50, 32]⟩
abbrev S16384x32 : Shape := ⟨2, ![16384, 32]⟩
abbrev S16384 : Shape := ⟨1, ![16384]⟩
abbrev S16384x10x32 : Shape := ⟨3, ![16384, 10, 32]⟩
abbrev S16384x20x32 : Shape := ⟨3, ![16384, 20, 32]⟩
abbrev S16384x1 : Shape := ⟨2, ![16384, 1]⟩

abbrev nBuf : Space → Nat
  | .hbm => 85
  | .vmem => 0
  | .smem => 0
  | _ => 0

abbrev bufTy : (tb : Table) → Fin (tcTables nBuf tb) → BufTy
  | .hbm, ⟨0, _⟩ => ⟨S16384x50x97, .f32⟩
  | .hbm, ⟨1, _⟩ => ⟨S16384x10x97, .f32⟩
  | .hbm, ⟨2, _⟩ => ⟨S16384x20x97, .f32⟩
  | .hbm, ⟨3, _⟩ => ⟨S_, .f32⟩
  | .hbm, ⟨4, _⟩ => ⟨S16384x97, .f32⟩
  | .hbm, ⟨5, _⟩ => ⟨S_, .f32⟩
  | .hbm, ⟨6, _⟩ => ⟨S16384x97, .f32⟩
  | .hbm, ⟨7, _⟩ => ⟨S_, .f32⟩
  | .hbm, ⟨8, _⟩ => ⟨S16384x97, .f32⟩
  | .hbm, ⟨9, _⟩ => ⟨S16384x50x32, .f32⟩
  | .hbm, ⟨10, _⟩ => ⟨S_, .f32⟩
  | .hbm, ⟨11, _⟩ => ⟨S16384x32, .f32⟩
  | .hbm, ⟨12, _⟩ => ⟨S16384x32, .f32⟩
  | .hbm, ⟨13, _⟩ => ⟨S_, .f32⟩
  | .hbm, ⟨14, _⟩ => ⟨S16384, .f32⟩
  | .hbm, ⟨15, _⟩ => ⟨S16384x50x32, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384x10x32, .f32⟩
  | .hbm, ⟨23, _⟩ => ⟨S_, .f32⟩
  | .hbm, ⟨24, _⟩ => ⟨S16384x32, .f32⟩
  | .hbm, ⟨25, _⟩ => ⟨S16384x32, .f32⟩
  | .hbm, ⟨26, _⟩ => ⟨S_, .f32⟩
  | .hbm, ⟨27, _⟩ => ⟨S16384, .f32⟩
  | .hbm, ⟨28, _⟩ => ⟨S16384x10x32, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384x20x32, .f32⟩
  | .hbm, ⟨37, _⟩ => ⟨S_, .f32⟩
  | .hbm, ⟨38, _⟩ => ⟨S16384x32, .f32⟩
  | .hbm, ⟨39, _⟩ => ⟨S16384x32, .f32⟩
  | .hbm, ⟨40, _⟩ => ⟨S_, .f32⟩
  | .hbm, ⟨41, _⟩ => ⟨S16384, .f32⟩
  | .hbm, ⟨42, _⟩ => ⟨S16384x20x32, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384x1, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384, .f32⟩
  | .hbm, ⟨73, _⟩ => ⟨S16384, .f32⟩
  | .hbm, ⟨74, _⟩ => ⟨S16384x1, .f32⟩
  | .hbm, ⟨75, _⟩ => ⟨S16384, .f32⟩
  | .hbm, ⟨76, _⟩ => ⟨S16384, .f32⟩
  | .hbm, ⟨77, _⟩ => ⟨S16384, .f32⟩
  | .hbm, ⟨78, _⟩ => ⟨S16384, .f32⟩
  | .hbm, ⟨79, _⟩ => ⟨S_, .f32⟩
  | .hbm, ⟨80, _⟩ => ⟨S16384, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | _, _ => ⟨S16384x50x97, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_v16 : Ref sig .tc := ⟨.hbm, 28, rfl⟩
abbrev main_cst_8 : Ref sig .tc := ⟨.hbm, 29, rfl⟩
abbrev main_v17 : Ref sig .tc := ⟨.hbm, 30, rfl⟩
abbrev main_v18 : Ref sig .tc := ⟨.hbm, 31, rfl⟩
abbrev main_cst_9 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_10 : Ref sig .tc := ⟨.hbm, 37, rfl⟩
abbrev main_v23 : Ref sig .tc := ⟨.hbm, 38, rfl⟩
abbrev main_v24 : Ref sig .tc := ⟨.hbm, 39, rfl⟩
abbrev main_cst_11 : Ref sig .tc := ⟨.hbm, 40, rfl⟩
abbrev main_v25 : Ref sig .tc := ⟨.hbm, 41, rfl⟩
abbrev main_v26 : Ref sig .tc := ⟨.hbm, 42, rfl⟩
abbrev main_cst_12 : Ref sig .tc := ⟨.hbm, 43, rfl⟩
abbrev main_v27 : Ref sig .tc := ⟨.hbm, 44, rfl⟩
abbrev main_v28 : Ref sig .tc := ⟨.hbm, 45, rfl⟩
abbrev main_cst_13 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_14 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_15 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_16 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_17 : Ref sig .tc := ⟨.hbm, 79, rfl⟩
abbrev main_v58 : Ref sig .tc := ⟨.hbm, 80, rfl⟩
abbrev main_v59 : Ref sig .tc := ⟨.hbm, 81, rfl⟩
abbrev main_cst_18 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  reducesTo_S16384x50x97_S16384x97_d1 : S16384x50x97.ReducesTo [1] S16384x97
  h_S_ : 0 < S_.numel
  reducesTo_S16384x10x97_S16384x97_d1 : S16384x10x97.ReducesTo [1] S16384x97
  reducesTo_S16384x20x97_S16384x97_d1 : S16384x20x97.ReducesTo [1] S16384x97
  slices_S16384x50x97_S16384x50x32_0_0_0 : S16384x50x97.Slices ![0, 0, 0] S16384x50x32
  reducesTo_S16384x50x32_S16384x32_d1 : S16384x50x32.ReducesTo [1] S16384x32
  reducesTo_S16384x32_S16384_d1 : S16384x32.ReducesTo [1] S16384
  reducesTo_S16384x50x32_S16384_d1_2 : S16384x50x32.ReducesTo [1, 2] S16384
  bcast_S_S16384 : S_.BroadcastsInDim S16384 (![] : Fin 0 → Fin S16384.rank)
  slices_S16384x10x97_S16384x10x32_0_0_32 : S16384x10x97.Slices ![0, 0, 32] S16384x10x32
  reducesTo_S16384x10x32_S16384x32_d1 : S16384x10x32.ReducesTo [1] S16384x32
  reducesTo_S16384x10x32_S16384_d1_2 : S16384x10x32.ReducesTo [1, 2] S16384
  slices_S16384x20x97_S16384x20x32_0_0_64 : S16384x20x97.Slices ![0, 0, 64] S16384x20x32
  reducesTo_S16384x20x32_S16384x32_d1 : S16384x20x32.ReducesTo [1] S16384x32
  reducesTo_S16384x20x32_S16384_d1_2 : S16384x20x32.ReducesTo [1, 2] S16384
  slices_S16384x97_S16384x32_0_32 : S16384x97.Slices ![0, 32] S16384x32
  slices_S16384x97_S16384x32_0_0 : S16384x97.Slices ![0, 0] S16384x32
  slices_S16384x97_S16384x32_0_64 : S16384x97.Slices ![0, 64] S16384x32
  slices_S16384x97_S16384x1_0_96 : S16384x97.Slices ![0, 96] S16384x1
  shapeCasts_S16384x1_S16384 : S16384x1.ShapeCasts S16384

variable [Facts₀]

class Facts : Prop extends Facts₀ where

variable [Facts]
-- ==== Proof.Spec.lean ====
/-
  The field-aware factorization score of one sample, as a function of its three feature tables, on the
  extended reals.

  A sample has three tables of rows of width 97: U (50 rows), C (10 rows), D (20 rows). A row is three latent
  blocks of 32 columns (columns 0–31, 32–63, 64–95) and one linear column (96). With S_T(w) the sum over the
  rows of table T of column w, the score is the logistic of

      ½·(Σ_k S_U(k)² − Σ_k Σ_n U(n,k)²) + ½·(Σ_k S_C(32+k)² − Σ_k Σ_n C(n,32+k)²)
        + ½·(Σ_k S_D(64+k)² − Σ_k Σ_n D(n,64+k)²)
        + Σ_k S_U(32+k)·S_C(k) + Σ_k S_U(64+k)·S_D(k) + Σ_k S_C(64+k)·S_D(32+k)
        + S_U(96) + S_C(96) + S_D(96),

  the additions associated to the left, k over the 32 latent coordinates. The ½ is kept as the f32 word
  0x3F000000 both programs carry; nothing here evaluates it.
-/
import Idealize.ShloMosaic.PureOps.Ideal
import Idealize.ShloMosaic.Lib.ValueIdx

noncomputable section

namespace Cert.FieldFM

open Idealize.ShloMosaic Idealize.ShloMosaic.ValueIdx

/-- One half, as the f32 word 0x3F000000 read at the ideal values. -/
abbrev half : EReal := Ideal.ofBits .f32 0x3F000000#32

/-- Column k of the first latent block of a 97-wide row. -/
abbrev col0 (k : Fin 32) : Fin 97 := ⟨k.val, by have := k.isLt; omega⟩
/-- Column k of the second latent block. -/
abbrev col1 (k : Fin 32) : Fin 97 := ⟨32 + k.val, by have := k.isLt; omega⟩
/-- Column k of the third latent block. -/
abbrev col2 (k : Fin 32) : Fin 97 := ⟨64 + k.val, by have := k.isLt; omega⟩
/-- The linear column. -/
abbrev colLin : Fin 97 := ⟨96, by omega⟩

/-- The second-order term of one field over its N latent vectors X n ∈ (extended reals)^32: half of the squared
    norm of their sum less the sum of their squared norms. -/
def fmTerm {N : Nat} (X : Fin N → Fin 32 → EReal) : EReal :=
  half * ((∑ k : Fin 32, (∑ n : Fin N, X n k) * (∑ n : Fin N, X n k)) - ∑ k : Fin 32, ∑ n : Fin N, X n k * X n k)

/-- The inner product of the row sums of two latent blocks. -/
def cross {N M : Nat} (A : Fin N → Fin 32 → EReal) (B : Fin M → Fin 32 → EReal) : EReal :=
  ∑ k : Fin 32, (∑ n : Fin N, A n k) * (∑ n : Fin M, B n k)

/-- The score of one sample from its three tables. -/
def rowScore (U : Fin 50 → Fin 97 → EReal) (C : Fin 10 → Fin 97 → EReal) (D : Fin 20 → Fin 97 → EReal) : EReal :=
  Ideal.logistic
    (fmTerm (fun n k => U n (col0 k)) + fmTerm (fun n k => C n (col1 k)) + fmTerm (fun n k => D n (col2 k))
      + cross (fun n k => U n (col1 k)) (fun n k => C n (col0 k))
      + cross (fun n k => U n (col2 k)) (fun n k => D n (col0 k))
      + cross (fun n k => C n (col2 k)) (fun n k => D n (col1 k))
      + ∑ n : Fin 50, U n colLin + ∑ n : Fin 10, C n colLin + ∑ n : Fin 20, D n colLin)

/-- Sample b's table out of a stack of B tables [B, N, 97]. -/
abbrev table {B N : Nat} (x : (⟨3, ![B, N, 97]⟩ : Shape).Idx → EReal) (b : Fin B) : Fin N → Fin 97 → EReal :=
  fun n w => x (ix3 b n w)

/-- The scores of a stack of B samples: sample b's score from its three tables. -/
def scores {B : Nat} (u : (⟨3, ![B, 50, 97]⟩ : Shape).Idx → EReal) (c : (⟨3, ![B, 10, 97]⟩ : Shape).Idx → EReal)
    (d : (⟨3, ![B, 20, 97]⟩ : Shape).Idx → EReal) : (⟨1, ![B]⟩ : Shape).Idx → EReal :=
  fun i => rowScore (table u (i 0)) (table c (i 0)) (table d (i 0))

theorem scores_apply {B : Nat} (u : (⟨3, ![B, 50, 97]⟩ : Shape).Idx → EReal) (c : (⟨3, ![B, 10, 97]⟩ : Shape).Idx → EReal)
    (d : (⟨3, ![B, 20, 97]⟩ : Shape).Idx → EReal) (b : Fin B) :
    scores u c d (ix1 b) = rowScore (table u b) (table c b) (table d b) := rfl

end Cert.FieldFM

end
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.KernelBlock.lean ====
/-
  What the kernel body leaves in its output block, read at a row.

  The body loads the three tables' blocks (256 samples each), sums each over its rows, takes the squared norms,
  inner products and linear columns the score needs, and applies the logistic. Read at row p of the block, the
  result is the score (`Cert.FieldFM.rowScore`) of the three tables of sample p of the blocks: each vector sum
  over one axis is a finite sum over that axis's coordinate, each slice shifts a column by its offset, and the
  three partial loads of latent columns read the block at columns k, 32 + k and 64 + k.
-/
import proofs.«126563_j30408368456214_2_alg».proof.Proof.Gen.KernelIdeal.Value
import proofs.«126563_j30408368456214_2_alg».proof.Proof.Spec
import proofs.«126563_j30408368456214_2_alg».proof.Proof.LibAxisSums
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open Cert.FieldFM Cert.Lib.AxisSums

variable {φ : FTy}

/-! ## The body's reductions at a row, over variable shapes -/

/-- The squared norm of the row sums of a block [B, N, K], at sample p. -/
theorem sqnorm_sum_apply {B N K : Nat} (P : FVec Ideal ⟨3, ![B, N, K]⟩ φ) (acc : BitVec φ.bits)
    (h1 : (⟨3, ![B, N, K]⟩ : Shape).Reduces [1] ⟨2, ![B, K]⟩) (h2 : (⟨2, ![B, K]⟩ : Shape).Reduces [1] ⟨1, ![B]⟩)
    (hφ : FKind.Formats φ) (hacc : acc = FKind.add.neutral φ hφ) (p : Fin B) :
    multiReduction .add [1] ⟨1, ![B]⟩
        (mulf (multiReduction .add [1] ⟨2, ![B, K]⟩ P acc h1 hφ hacc) (multiReduction .add [1] ⟨2, ![B, K]⟩ P acc h1 hφ hacc))
        acc h2 hφ hacc (ix1 p)
      = ∑ k : Fin K, (∑ n : Fin N, P (ix3 p n k)) * (∑ n : Fin N, P (ix3 p n k)) := by
  rw [multiReduction_add_last_apply]
  refine Finset.sum_congr rfl fun k _ => ?_
  rw [mulf_apply, multiReduction_add_mid_apply]

/-- The sum of the squares of a block [B, N, K] over its rows, then over its columns, at sample p. -/
theorem sum_sq_apply {B N K : Nat} (P : FVec Ideal ⟨3, ![B, N, K]⟩ φ) (acc : BitVec φ.bits)
    (h1 : (⟨3, ![B, N, K]⟩ : Shape).Reduces [1] ⟨2, ![B, K]⟩) (h2 : (⟨2, ![B, K]⟩ : Shape).Reduces [1] ⟨1, ![B]⟩)
    (hφ : FKind.Formats φ) (hacc : acc = FKind.add.neutral φ hφ) (p : Fin B) :
    multiReduction .add [1] ⟨1, ![B]⟩ (multiReduction .add [1] ⟨2, ![B, K]⟩ (mulf P P) acc h1 hφ hacc) acc h2 hφ hacc (ix1 p)
      = ∑ k : Fin K, ∑ n : Fin N, P (ix3 p n k) * P (ix3 p n k) := by
  rw [multiReduction_add_last_apply]
  refine Finset.sum_congr rfl fun k _ => ?_
  rw [multiReduction_add_mid_apply]
  rfl

/-- The inner product of two K-column slices, at column offsets o1 and o2, of the row sums of two blocks
    [B, N, W] and [B, M, W], at sample p: column k of a slice is column o + k of the row sums. -/
theorem cross_apply {B N M W K : Nat} (P : FVec Ideal ⟨3, ![B, N, W]⟩ φ) (Q : FVec Ideal ⟨3, ![B, M, W]⟩ φ)
    (acc : BitVec φ.bits)
    (hP : (⟨3, ![B, N, W]⟩ : Shape).Reduces [1] ⟨2, ![B, W]⟩) (hQ : (⟨3, ![B, M, W]⟩ : Shape).Reduces [1] ⟨2, ![B, W]⟩)
    (o1 o2 : Nat) (s1 : (⟨2, ![B, W]⟩ : Shape).Slices ![0, o1] ⟨2, ![B, K]⟩) (s2 : (⟨2, ![B, W]⟩ : Shape).Slices ![0, o2] ⟨2, ![B, K]⟩)
    (h2 : (⟨2, ![B, K]⟩ : Shape).Reduces [1] ⟨1, ![B]⟩)
    (hφ : FKind.Formats φ) (hacc : acc = FKind.add.neutral φ hφ) (p : Fin B)
    (c1 c2 : Fin K → Fin W) (hc1 : ∀ k, (c1 k).val = o1 + k.val) (hc2 : ∀ k, (c2 k).val = o2 + k.val) :
    multiReduction .add [1] ⟨1, ![B]⟩
        (mulf (extractStridedSlice ⟨2, ![B, K]⟩ ![0, o1] (multiReduction .add [1] ⟨2, ![B, W]⟩ P acc hP hφ hacc) s1)
          (extractStridedSlice ⟨2, ![B, K]⟩ ![0, o2] (multiReduction .add [1] ⟨2, ![B, W]⟩ Q acc hQ hφ hacc) s2))
        acc h2 hφ hacc (ix1 p)
      = ∑ k : Fin K, (∑ n : Fin N, P (ix3 p n (c1 k))) * (∑ n : Fin M, Q (ix3 p n (c2 k))) := by
  rw [multiReduction_add_last_apply]
  refine Finset.sum_congr rfl fun k _ => ?_
  rw [mulf_apply,
    extractStridedSlice_apply ![0, o1] _ s1 (ix2 p k) (ix2 p (c1 k)) (fun a => match a with
      | ⟨0, _⟩ => by show p.val = 0 + p.val; omega
      | ⟨1, _⟩ => by show (c1 k).val = o1 + k.val; exact hc1 k),
    extractStridedSlice_apply ![0, o2] _ s2 (ix2 p k) (ix2 p (c2 k)) (fun a => match a with
      | ⟨0, _⟩ => by show p.val = 0 + p.val; omega
      | ⟨1, _⟩ => by show (c2 k).val = o2 + k.val; exact hc2 k),
    multiReduction_add_mid_apply, multiReduction_add_mid_apply]

/-! ## The generated block function at a row -/

/-- The block the body's pieces leave (the generated `Value.E3` of the six loads), at row p: the logistic of the
    three second-order terms of the latent loads, the three inner products of row-sum slices of the full loads,
    and the three linear columns, added in the body's order. -/
theorem E3_apply (P0 : Vec Ideal S256x50x32 .f32) (P1 : Vec Ideal S256x10x32 .f32) (P2 : Vec Ideal S256x20x32 .f32)
    (P3 : Vec Ideal S256x50x97 .f32) (P4 : Vec Ideal S256x10x97 .f32) (P5 : Vec Ideal S256x20x97 .f32) (p : Fin 256) :
    Value.E3 (F := Ideal) P0 P1 P2 P3 P4 P5 (ix1 p)
      = Ideal.logistic
          (fmTerm (fun n k => P0 (ix3 p n k)) + fmTerm (fun n k => P1 (ix3 p n k)) + fmTerm (fun n k => P2 (ix3 p n k))
            + cross (fun n k => P3 (ix3 p n (col1 k))) (fun n k => P4 (ix3 p n (col0 k)))
            + cross (fun n k => P3 (ix3 p n (col2 k))) (fun n k => P5 (ix3 p n (col0 k)))
            + cross (fun n k => P4 (ix3 p n (col2 k))) (fun n k => P5 (ix3 p n (col1 k)))
            + ∑ n : Fin 50, P3 (ix3 p n colLin) + ∑ n : Fin 10, P4 (ix3 p n colLin) + ∑ n : Fin 20, P5 (ix3 p n colLin)) := by
  have e0 : Value.ix3_0 (ix1 p) = ix1 p := funext fun a => by match a with | ⟨0, _⟩ => rfl
  have e1 : Value.ix3_1 (ix1 p) = ix1 p := funext fun a => by match a with | ⟨0, _⟩ => rfl
  have e2 : Value.ix3_2 (ix1 p) = ix1 p := funext fun a => by match a with | ⟨0, _⟩ => rfl
  have e3 : Value.ix3_3 (ix1 p) = ix1 p := funext fun a => by match a with | ⟨0, _⟩ => rfl
  have e4 : Value.ix3_4 (ix1 p) = ix1 p := funext fun a => by match a with | ⟨0, _⟩ => rfl
  have e5 : Value.ix3_5 (ix1 p) = ix1 p := funext fun a => by match a with | ⟨0, _⟩ => rfl
  have e6 : Value.ix3_6 (ix1 p) = ix1 p := funext fun a => by match a with | ⟨0, _⟩ => rfl
  have e7 : Value.ix3_7 (ix1 p) = ix1 p := funext fun a => by match a with | ⟨0, _⟩ => rfl
  have e8 : Value.ix3_8 (ix1 p) = ix1 p := funext fun a => by match a with | ⟨0, _⟩ => rfl
  have e9 : Value.ix3_9 (ix1 p) = ix2 p colLin := funext fun a => by match a with | ⟨0, _⟩ => rfl | ⟨1, _⟩ => rfl
  have e10 : Value.ix3_10 (ix1 p) = ix2 p colLin := funext fun a => by match a with | ⟨0, _⟩ => rfl | ⟨1, _⟩ => rfl
  have e11 : Value.ix3_11 (ix1 p) = ix2 p colLin := funext fun a => by match a with | ⟨0, _⟩ => rfl | ⟨1, _⟩ => rfl
  refine congrArg Ideal.logistic ?_
  refine congrArg₂ (· + ·) (congrArg₂ (· + ·) (congrArg₂ (· + ·) (congrArg₂ (· + ·) (congrArg₂ (· + ·) (congrArg₂ (· + ·)
    (congrArg₂ (· + ·) (congrArg₂ (· + ·) ?fu ?fc) ?fd) ?x1) ?x2) ?x3) ?lu) ?lc) ?ld
  case fu =>
    rw [e0, e1]
    exact congrArg₂ (fun s t : EReal => half * (s - t)) (sqnorm_sum_apply P0 _ _ _ _ _ p) (sum_sq_apply P0 _ _ _ _ _ p)
  case fc =>
    rw [e2, e3]
    exact congrArg₂ (fun s t : EReal => half * (s - t)) (sqnorm_sum_apply P1 _ _ _ _ _ p) (sum_sq_apply P1 _ _ _ _ _ p)
  case fd =>
    rw [e4, e5]
    exact congrArg₂ (fun s t : EReal => half * (s - t)) (sqnorm_sum_apply P2 _ _ _ _ _ p) (sum_sq_apply P2 _ _ _ _ _ p)
  case x1 =>
    rw [e6]
    exact cross_apply P3 P4 _ _ _ 32 0 _ _ _ _ _ p col1 col0 (fun _ => rfl) (fun k => (Nat.zero_add k.val).symm)
  case x2 =>
    rw [e7]
    exact cross_apply P3 P5 _ _ _ 64 0 _ _ _ _ _ p col2 col0 (fun _ => rfl) (fun k => (Nat.zero_add k.val).symm)
  case x3 =>
    rw [e8]
    exact cross_apply P4 P5 _ _ _ 64 32 _ _ _ _ _ p col2 col1 (fun _ => rfl) (fun _ => rfl)
  case lu => rw [e9]; exact multiReduction_add_mid_apply P3 _ _ _ _ p colLin
  case lc => rw [e10]; exact multiReduction_add_mid_apply P4 _ _ _ _ p colLin
  case ld => rw [e11]; exact multiReduction_add_mid_apply P5 _ _ _ _ p colLin

end Cert.KernelIdeal.BlockValue

end
-- ==== Proof.KernelArray.lean ====
/-
  From blocks to the array: after the kernel's run its result array is the stack of scores of the argument arrays.

  The grid has 64 points; point t stages samples 256·t … 256·t + 255 of each table (whole in the two trailing axes)
  and writes back block t of the result. What it writes at row p is the score of sample p of the staged blocks
  (the block theorem), which is sample 256·t + p of the argument arrays; the 64 blocks cover the 16384 samples,
  sample i lying in block i / 256.
-/
import proofs.«126563_j30408368456214_2_alg».proof.Proof.Gen.KernelIdeal.Value
import proofs.«126563_j30408368456214_2_alg».proof.Proof.KernelBlock
import proofs.«126563_j30408368456214_2_alg».proof.Proof.Spec
import Idealize.ShloMosaic.Lib.ValueIdx
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.FieldFM Cert.KernelIdeal.BlockValue
open Idealize.ShloMosaic.Pipeline (Dat)

variable (m : (ℓ : Loc nD τ sig) → Buf (Elt Ideal) ℓ) (ρ : Dev nD → PrngReg)

/-! ## The body's block at a row, over the staged blocks -/

theorem hz3 : (![0, 0, 0] : Fin 3 → Nat) = fun _ => 0 := funext fun a => by fin_cases a <;> rfl

/-- What the body leaves at row y of its output block: the score of sample `y 0` of the three staged blocks. The
    full loads read the blocks; the latent loads read them at columns k, 32 + k and 64 + k. -/
theorem out_apply (x0 : Vec Ideal S256x50x97 .f32) (x1 : Vec Ideal S256x10x97 .f32) (x2 : Vec Ideal S256x20x97 .f32)
    (y : S256.Idx) :
    out0_3 x0 x1 x2 y = rowScore (table x0 (y 0)) (table x1 (y 0)) (table x2 (y 0)) := by
  obtain ⟨p, rfl⟩ : ∃ p : Fin 256, y = ix1 p := ⟨y 0, eq_ix1 y⟩
  unfold out0_3
  rw [Value.canon3_eq, E3_apply]
  have l0 : View.ld x0 r0_0 = x0 := View.ld_unit_zero hz3 _ x0
  have l1 : View.ld x1 r0_1 = x1 := View.ld_unit_zero hz3 _ x1
  have l2 : View.ld x2 r0_2 = x2 := View.ld_unit_zero hz3 _ x2
  have l3 : ∀ (n : Fin 50) (k : Fin 32), View.ld x0 r0_3 (ix3 p n k) = x0 (ix3 p n (col0 k)) := fun n k =>
    congrArg x0 (funext fun a => Fin.ext (by
      match a with
      | ⟨0, _⟩ => show 0 + 1 * p.val = p.val; omega
      | ⟨1, _⟩ => show 0 + 1 * n.val = n.val; omega
      | ⟨2, _⟩ => show 0 + 1 * k.val = k.val; omega))
  have l4 : ∀ (n : Fin 10) (k : Fin 32), View.ld x1 r0_4 (ix3 p n k) = x1 (ix3 p n (col1 k)) := fun n k =>
    congrArg x1 (funext fun a => Fin.ext (by
      match a with
      | ⟨0, _⟩ => show 0 + 1 * p.val = p.val; omega
      | ⟨1, _⟩ => show 0 + 1 * n.val = n.val; omega
      | ⟨2, _⟩ => show 32 + 1 * k.val = 32 + k.val; omega))
  have l5 : ∀ (n : Fin 20) (k : Fin 32), View.ld x2 r0_5 (ix3 p n k) = x2 (ix3 p n (col2 k)) := fun n k =>
    congrArg x2 (funext fun a => Fin.ext (by
      match a with
      | ⟨0, _⟩ => show 0 + 1 * p.val = p.val; omega
      | ⟨1, _⟩ => show 0 + 1 * n.val = n.val; omega
      | ⟨2, _⟩ => show 64 + 1 * k.val = 64 + k.val; omega))
  rw [l0, l1, l2]
  simp only [l3, l4, l5]
  rfl

/-! ## The index maps, decided over the grid -/

/-- Each input window's block index is the output's on the sample axis and zero on the two trailing axes, and the
    output's block index at point t is t. -/
theorem idx_facts : ∀ t : Fin cfg0.N,
    win0_0.index t (0 : Fin 3) = win0_3.index t (0 : Fin 1) ∧ win0_0.index t (1 : Fin 3) = 0 ∧ win0_0.index t (2 : Fin 3) = 0
    ∧ win0_1.index t (0 : Fin 3) = win0_3.index t (0 : Fin 1) ∧ win0_1.index t (1 : Fin 3) = 0 ∧ win0_1.index t (2 : Fin 3) = 0
    ∧ win0_2.index t (0 : Fin 3) = win0_3.index t (0 : Fin 1) ∧ win0_2.index t (1 : Fin 3) = 0 ∧ win0_2.index t (2 : Fin 3) = 0
    ∧ win0_3.index t (0 : Fin 1) = t.val :=
  (by decide +kernel : ∀ t : Fin grid0.N, _)

/-! ## What a point writes back -/

/-- The kernel's result as one function of the argument arrays: the stack of scores. -/
abbrev G (c : Dev nD) : S16384.Idx → Elt Ideal .f32 :=
  scores (B := 16384) (m ((c : Thread nD τ).loc main_arg0)) (m ((c : Thread nD τ).loc main_arg1)) (m ((c : Thread nD τ).loc main_arg2))

/-- Point t writes back block t of the stack of scores. -/
theorem flushed_eq (c : Dev nD) (t : Fin cfg0.N) :
    (dats m 0 c).flushed 3 t = ((cfg0.win 3).blk t).view.read (Elt Ideal) (G m c) := by
  rw [Value.flushed3]
  obtain ⟨a0, a1, a2, b0, b1, b2, c0, c1, c2, -⟩ := idx_facts t
  funext j
  show out0_3 (iblk m c 0 t) (iblk m c 1 t) (iblk m c 2 t) j = G m c (((cfg0.win 3).blk t).view.emb j)
  refine (out_apply (iblk m c 0 t) (iblk m c 1 t) (iblk m c 2 t) j).trans ?_
  have hj : (j 0).val < 256 := (j 0).isLt
  have h0 : ∀ (n : Fin 50) (w : Fin 97), iblk m c 0 t (ix3 (j 0) n w)
      = m ((c : Thread nD τ).loc main_arg0) (ix3 ((((cfg0.win 3).blk t).view.emb j) 0) n w) := fun n w => by
    show V m c main_arg0 (((cfg0.win 0).blk t).view.emb (ix3 (j 0) n w)) = V m c main_arg0 _
    refine congrArg _ (funext fun a => Fin.ext ?_)
    match a with
    | ⟨0, _⟩ => show win0_0.index t (0 : Fin 3) * 256 + 1 * (j 0).val = win0_3.index t (0 : Fin 1) * 256 + 1 * (j 0).val; omega
    | ⟨1, _⟩ => show win0_0.index t (1 : Fin 3) * 50 + 1 * n.val = n.val; omega
    | ⟨2, _⟩ => show win0_0.index t (2 : Fin 3) * 97 + 1 * w.val = w.val; omega
  have h1 : ∀ (n : Fin 10) (w : Fin 97), iblk m c 1 t (ix3 (j 0) n w)
      = m ((c : Thread nD τ).loc main_arg1) (ix3 ((((cfg0.win 3).blk t).view.emb j) 0) n w) := fun n w => by
    show V m c main_arg1 (((cfg0.win 1).blk t).view.emb (ix3 (j 0) n w)) = V m c main_arg1 _
    refine congrArg _ (funext fun a => Fin.ext ?_)
    match a with
    | ⟨0, _⟩ => show win0_1.index t (0 : Fin 3) * 256 + 1 * (j 0).val = win0_3.index t (0 : Fin 1) * 256 + 1 * (j 0).val; omega
    | ⟨1, _⟩ => show win0_1.index t (1 : Fin 3) * 10 + 1 * n.val = n.val; omega
    | ⟨2, _⟩ => show win0_1.index t (2 : Fin 3) * 97 + 1 * w.val = w.val; omega
  have h2 : ∀ (n : Fin 20) (w : Fin 97), iblk m c 2 t (ix3 (j 0) n w)
      = m ((c : Thread nD τ).loc main_arg2) (ix3 ((((cfg0.win 3).blk t).view.emb j) 0) n w) := fun n w => by
    show V m c main_arg2 (((cfg0.win 2).blk t).view.emb (ix3 (j 0) n w)) = V m c main_arg2 _
    refine congrArg _ (funext fun a => Fin.ext ?_)
    match a with
    | ⟨0, _⟩ => show win0_2.index t (0 : Fin 3) * 256 + 1 * (j 0).val = win0_3.index t (0 : Fin 1) * 256 + 1 * (j 0).val; omega
    | ⟨1, _⟩ => show win0_2.index t (1 : Fin 3) * 20 + 1 * n.val = n.val; omega
    | ⟨2, _⟩ => show win0_2.index t (2 : Fin 3) * 97 + 1 * w.val = w.val; omega
  show rowScore (fun n w => iblk m c 0 t (ix3 (j 0) n w)) (fun n w => iblk m c 1 t (ix3 (j 0) n w))
      (fun n w => iblk m c 2 t (ix3 (j 0) n w)) = _
  simp only [h0, h1, h2]
  rfl

/-! ## The cover -/

/-- An index of the result array is in point t's block iff its coordinate is in the block's range. -/
theorem mem_blk (t : Fin cfg0.N) (i : S16384.Idx) :
    i ∈ ((cfg0.win 3).blk t).view.set ↔ ∀ a : Fin 1, win0_3.index t a * S256.size a ≤ (i a).val ∧ (i a).val < win0_3.index t a * S256.size a + S256.size a := by
  show i ∈ ((View.whole main_v0).slice (win0_3.rect t)).set ↔ _
  rw [View.set_slice_whole, Rect.mem_set_unit]
  exact Iff.rfl

/-- Every sample lies in some point's block: sample i in block i / 256. -/
theorem cover (i : S16384.Idx) : ∃ t : Fin cfg0.N, (cfg0.win 3).flush t = true ∧ i ∈ ((cfg0.win 3).blk t).view.set := by
  have hi : (i 0).val < 16384 := (i 0).isLt
  have hlt : (i 0).val / 256 < 64 := by omega
  refine ⟨⟨(i 0).val / 256, hlt⟩, flush0_3 _, ?_⟩
  rw [mem_blk]
  intro a
  have q : win0_3.index ⟨(i 0).val / 256, hlt⟩ (0 : Fin 1) = (i 0).val / 256 := (idx_facts ⟨(i 0).val / 256, hlt⟩).2.2.2.2.2.2.2.2.2
  match a with
  | ⟨0, _⟩ =>
    show win0_3.index ⟨(i 0).val / 256, hlt⟩ (0 : Fin 1) * 256 ≤ (i 0).val ∧ (i 0).val < win0_3.index ⟨(i 0).val / 256, hlt⟩ (0 : Fin 1) * 256 + 256
    rw [q]; omega

/-! ## The array after the run, and the run -/

/-- After the run the result array is the stack of scores of the argument arrays. -/
theorem final (c : Dev nD) : (dats m 0 c).arrAt 3 cfg0.N = G m c :=
  (dats m 0 c).arrAt_eq_of_cover 3 (G m c) (fun t _ => flushed_eq m c t) cover

/-- The kernel's run: it terminates with the result array the stack of scores and the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefValue.lean ====
/-
  The reference's result, read at a sample, is the score of the sample's three tables.

  The reference sums each table over its rows, slices the latent blocks and the linear column out of the sums (and
  the latent blocks out of the tables), and combines them as the score does, every host sum starting from the
  zero word; its logistic is spelt 1 / (1 + exp (−z)), which is the logistic of the ideal values by definition,
  the word 0x3F800000 being 1.
-/
import proofs.«126563_j30408368456214_2_alg».proof.Proof.Gen.ReferenceIdeal.Read
import proofs.«126563_j30408368456214_2_alg».proof.Proof.Spec
import proofs.«126563_j30408368456214_2_alg».proof.Proof.LibAxisSums
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.FieldFM Cert.Lib.AxisSums

/-! ## The row sums -/

/-- The reference's sum of the user table over its rows, at sample b and column w. -/
theorem rowsum_user (x0 : (⟨S16384x50x97, .f32⟩ : BufTy).Contents (Elt Ideal)) (b : Fin 16384) (w : Fin 97) :
    val_main_v0 (F := Ideal) x0 (ix2 b w) = ∑ n : Fin 50, x0 (ix3 b n w) := by
  rw [val_main_v0_apply, show val_main_cst (F := Ideal) (Shape.Idx.first h_S_) = 0 from Ideal.ofBits_zero_f32, zero_add]
  exact Finset.sum_congr rfl fun n _ => congrArg x0 (funext fun a => by match a with | ⟨0, _⟩ => rfl | ⟨1, _⟩ => rfl | ⟨2, _⟩ => rfl)

/-- The reference's sum of the ctx table over its rows, at sample b and column w. -/
theorem rowsum_ctx (x1 : (⟨S16384x10x97, .f32⟩ : BufTy).Contents (Elt Ideal)) (b : Fin 16384) (w : Fin 97) :
    val_main_v1 (F := Ideal) x1 (ix2 b w) = ∑ n : Fin 10, x1 (ix3 b n w) := by
  rw [val_main_v1_apply, show val_main_cst_0 (F := Ideal) (Shape.Idx.first h_S_) = 0 from Ideal.ofBits_zero_f32, zero_add]
  exact Finset.sum_congr rfl fun n _ => congrArg x1 (funext fun a => by match a with | ⟨0, _⟩ => rfl | ⟨1, _⟩ => rfl | ⟨2, _⟩ => rfl)

/-- The reference's sum of the doc table over its rows, at sample b and column w. -/
theorem rowsum_doc (x2 : (⟨S16384x20x97, .f32⟩ : BufTy).Contents (Elt Ideal)) (b : Fin 16384) (w : Fin 97) :
    val_main_v2 (F := Ideal) x2 (ix2 b w) = ∑ n : Fin 20, x2 (ix3 b n w) := by
  rw [val_main_v2_apply, show val_main_cst_1 (F := Ideal) (Shape.Idx.first h_S_) = 0 from Ideal.ofBits_zero_f32, zero_add]
  exact Finset.sum_congr rfl fun n _ => congrArg x2 (funext fun a => by match a with | ⟨0, _⟩ => rfl | ⟨1, _⟩ => rfl | ⟨2, _⟩ => rfl)

/-! ## The second-order terms -/

/-- The reference's second-order term of the user field at sample b: the slice reads latent column k at column
    `col0 k`, the two one-axis sums are finite sums from a zero initial value, and the sum of squares over both
    trailing axes at once is the double sum, taken here columns first. -/
theorem fm_user (x0 : (⟨S16384x50x97, .f32⟩ : BufTy).Contents (Elt Ideal)) (b : Fin 16384) :
    val_main_v11 (F := Ideal) x0 (ix1 b) = fmTerm (fun n k => x0 (ix3 b n (col0 k))) := by
  have hs : ∀ (n : Fin 50) (k : Fin 32), val_main_v3 (F := Ideal) x0 (ix3 b n k) = x0 (ix3 b n (col0 k)) := fun n k => by
    rw [val_main_v3_apply]
    exact congrArg x0 (funext fun a => by match a with | ⟨0, _⟩ => rfl | ⟨1, _⟩ => rfl | ⟨2, _⟩ => rfl)
  have h1 : ∀ k : Fin 32, val_main_v4 (F := Ideal) x0 (ix2 b k) = ∑ n : Fin 50, x0 (ix3 b n (col0 k)) := fun k => by
    rw [val_main_v4_apply, show val_main_cst_2 (F := Ideal) (Shape.Idx.first h_S_) = 0 from Ideal.ofBits_zero_f32, zero_add]
    refine Finset.sum_congr rfl fun n _ => ?_
    rw [← hs n k]
    exact congrArg _ (funext fun a => by match a with | ⟨0, _⟩ => rfl | ⟨1, _⟩ => rfl | ⟨2, _⟩ => rfl)
  have h2 : val_main_v6 (F := Ideal) x0 (ix1 b)
      = ∑ k : Fin 32, (∑ n : Fin 50, x0 (ix3 b n (col0 k))) * (∑ n : Fin 50, x0 (ix3 b n (col0 k))) := by
    rw [val_main_v6_apply, show val_main_cst_3 (F := Ideal) (Shape.Idx.first h_S_) = 0 from Ideal.ofBits_zero_f32, zero_add]
    refine Finset.sum_congr rfl fun k _ => ?_
    rw [show idx_main_v6 (ix1 b) k = ix2 b k from funext fun a => by match a with | ⟨0, _⟩ => rfl | ⟨1, _⟩ => rfl, val_main_v5_apply, h1 k]
    rfl
  have h3 : val_main_v8 (F := Ideal) x0 (ix1 b)
      = ∑ k : Fin 32, ∑ n : Fin 50, x0 (ix3 b n (col0 k)) * x0 (ix3 b n (col0 k)) := by
    unfold val_main_v8
    simp only [Host.reduceAdd, Ideal.hostReduceAdd_def]
    rw [hostReduceAdd_trailing_two_apply, show val_main_cst_4 (F := Ideal) (Shape.Idx.first h_S_) = 0 from Ideal.ofBits_zero_f32,
      zero_add, Finset.sum_comm]
    refine Finset.sum_congr rfl fun k _ => Finset.sum_congr rfl fun n _ => ?_
    rw [val_main_v7_apply, hs n k]
    rfl
  rw [val_main_v11_apply, val_main_v10_apply, val_main_v9_apply, h2, h3]
  rfl

/-- The reference's second-order term of the ctx field at sample b: the slice reads latent column k at column
    `col1 k`, the two one-axis sums are finite sums from a zero initial value, and the sum of squares over both
    trailing axes at once is the double sum, taken here columns first. -/
theorem fm_ctx (x1 : (⟨S16384x10x97, .f32⟩ : BufTy).Contents (Elt Ideal)) (b : Fin 16384) :
    val_main_v20 (F := Ideal) x1 (ix1 b) = fmTerm (fun n k => x1 (ix3 b n (col1 k))) := by
  have hs : ∀ (n : Fin 10) (k : Fin 32), val_main_v12 (F := Ideal) x1 (ix3 b n k) = x1 (ix3 b n (col1 k)) := fun n k => by
    rw [val_main_v12_apply]
    exact congrArg x1 (funext fun a => by match a with | ⟨0, _⟩ => rfl | ⟨1, _⟩ => rfl | ⟨2, _⟩ => rfl)
  have h1 : ∀ k : Fin 32, val_main_v13 (F := Ideal) x1 (ix2 b k) = ∑ n : Fin 10, x1 (ix3 b n (col1 k)) := fun k => by
    rw [val_main_v13_apply, show val_main_cst_6 (F := Ideal) (Shape.Idx.first h_S_) = 0 from Ideal.ofBits_zero_f32, zero_add]
    refine Finset.sum_congr rfl fun n _ => ?_
    rw [← hs n k]
    exact congrArg _ (funext fun a => by match a with | ⟨0, _⟩ => rfl | ⟨1, _⟩ => rfl | ⟨2, _⟩ => rfl)
  have h2 : val_main_v15 (F := Ideal) x1 (ix1 b)
      = ∑ k : Fin 32, (∑ n : Fin 10, x1 (ix3 b n (col1 k))) * (∑ n : Fin 10, x1 (ix3 b n (col1 k))) := by
    rw [val_main_v15_apply, show val_main_cst_7 (F := Ideal) (Shape.Idx.first h_S_) = 0 from Ideal.ofBits_zero_f32, zero_add]
    refine Finset.sum_congr rfl fun k _ => ?_
    rw [show idx_main_v15 (ix1 b) k = ix2 b k from funext fun a => by match a with | ⟨0, _⟩ => rfl | ⟨1, _⟩ => rfl, val_main_v14_apply, h1 k]
    rfl
  have h3 : val_main_v17 (F := Ideal) x1 (ix1 b)
      = ∑ k : Fin 32, ∑ n : Fin 10, x1 (ix3 b n (col1 k)) * x1 (ix3 b n (col1 k)) := by
    unfold val_main_v17
    simp only [Host.reduceAdd, Ideal.hostReduceAdd_def]
    rw [hostReduceAdd_trailing_two_apply, show val_main_cst_8 (F := Ideal) (Shape.Idx.first h_S_) = 0 from Ideal.ofBits_zero_f32,
      zero_add, Finset.sum_comm]
    refine Finset.sum_congr rfl fun k _ => Finset.sum_congr rfl fun n _ => ?_
    rw [val_main_v16_apply, hs n k]
    rfl
  rw [val_main_v20_apply, val_main_v19_apply, val_main_v18_apply, h2, h3]
  rfl

/-- The reference's second-order term of the doc field at sample b: the slice reads latent column k at column
    `col2 k`, the two one-axis sums are finite sums from a zero initial value, and the sum of squares over both
    trailing axes at once is the double sum, taken here columns first. -/
theorem fm_doc (x2 : (⟨S16384x20x97, .f32⟩ : BufTy).Contents (Elt Ideal)) (b : Fin 16384) :
    val_main_v30 (F := Ideal) x2 (ix1 b) = fmTerm (fun n k => x2 (ix3 b n (col2 k))) := by
  have hs : ∀ (n : Fin 20) (k : Fin 32), val_main_v22 (F := Ideal) x2 (ix3 b n k) = x2 (ix3 b n (col2 k)) := fun n k => by
    rw [val_main_v22_apply]
    exact congrArg x2 (funext fun a => by match a with | ⟨0, _⟩ => rfl | ⟨1, _⟩ => rfl | ⟨2, _⟩ => rfl)
  have h1 : ∀ k : Fin 32, val_main_v23 (F := Ideal) x2 (ix2 b k) = ∑ n : Fin 20, x2 (ix3 b n (col2 k)) := fun k => by
    rw [val_main_v23_apply, show val_main_cst_10 (F := Ideal) (Shape.Idx.first h_S_) = 0 from Ideal.ofBits_zero_f32, zero_add]
    refine Finset.sum_congr rfl fun n _ => ?_
    rw [← hs n k]
    exact congrArg _ (funext fun a => by match a with | ⟨0, _⟩ => rfl | ⟨1, _⟩ => rfl | ⟨2, _⟩ => rfl)
  have h2 : val_main_v25 (F := Ideal) x2 (ix1 b)
      = ∑ k : Fin 32, (∑ n : Fin 20, x2 (ix3 b n (col2 k))) * (∑ n : Fin 20, x2 (ix3 b n (col2 k))) := by
    rw [val_main_v25_apply, show val_main_cst_11 (F := Ideal) (Shape.Idx.first h_S_) = 0 from Ideal.ofBits_zero_f32, zero_add]
    refine Finset.sum_congr rfl fun k _ => ?_
    rw [show idx_main_v25 (ix1 b) k = ix2 b k from funext fun a => by match a with | ⟨0, _⟩ => rfl | ⟨1, _⟩ => rfl, val_main_v24_apply, h1 k]
    rfl
  have h3 : val_main_v27 (F := Ideal) x2 (ix1 b)
      = ∑ k : Fin 32, ∑ n : Fin 20, x2 (ix3 b n (col2 k)) * x2 (ix3 b n (col2 k)) := by
    unfold val_main_v27
    simp only [Host.reduceAdd, Ideal.hostReduceAdd_def]
    rw [hostReduceAdd_trailing_two_apply, show val_main_cst_12 (F := Ideal) (Shape.Idx.first h_S_) = 0 from Ideal.ofBits_zero_f32,
      zero_add, Finset.sum_comm]
    refine Finset.sum_congr rfl fun k _ => Finset.sum_congr rfl fun n _ => ?_
    rw [val_main_v26_apply, hs n k]
    rfl
  rw [val_main_v30_apply, val_main_v29_apply, val_main_v28_apply, h2, h3]
  rfl

/-! ## The cross terms -/

/-- The reference's inner product of latent block `col1` of the user row sums with block `col0` of the ctx row
    sums, at sample b. -/
theorem cross_user_ctx (x0 : (⟨S16384x50x97, .f32⟩ : BufTy).Contents (Elt Ideal)) (x1 : (⟨S16384x10x97, .f32⟩ : BufTy).Contents (Elt Ideal)) (b : Fin 16384) :
    val_main_v35 (F := Ideal) x0 x1 (ix1 b)
      = cross (fun n k => x0 (ix3 b n (col1 k))) (fun n k => x1 (ix3 b n (col0 k))) := by
  rw [val_main_v35_apply, show val_main_cst_14 (F := Ideal) (Shape.Idx.first h_S_) = 0 from Ideal.ofBits_zero_f32, zero_add]
  refine Finset.sum_congr rfl fun k _ => ?_
  rw [show idx_main_v35 (ix1 b) k = ix2 b k from funext fun a => by match a with | ⟨0, _⟩ => rfl | ⟨1, _⟩ => rfl, val_main_v34_apply, val_main_v32_apply, val_main_v33_apply,
    show idx_main_v32 (ix2 b k) = ix2 b (col1 k) from funext fun a => by match a with | ⟨0, _⟩ => rfl | ⟨1, _⟩ => rfl,
    show idx_main_v33 (ix2 b k) = ix2 b (col0 k) from funext fun a => by match a with | ⟨0, _⟩ => rfl | ⟨1, _⟩ => rfl, rowsum_user, rowsum_ctx]
  rfl

/-- The reference's inner product of latent block `col2` of the user row sums with block `col0` of the doc row
    sums, at sample b. -/
theorem cross_user_doc (x0 : (⟨S16384x50x97, .f32⟩ : BufTy).Contents (Elt Ideal)) (x2 : (⟨S16384x20x97, .f32⟩ : BufTy).Contents (Elt Ideal)) (b : Fin 16384) :
    val_main_v40 (F := Ideal) x0 x2 (ix1 b)
      = cross (fun n k => x0 (ix3 b n (col2 k))) (fun n k => x2 (ix3 b n (col0 k))) := by
  rw [val_main_v40_apply, show val_main_cst_15 (F := Ideal) (Shape.Idx.first h_S_) = 0 from Ideal.ofBits_zero_f32, zero_add]
  refine Finset.sum_congr rfl fun k _ => ?_
  rw [show idx_main_v40 (ix1 b) k = ix2 b k from funext fun a => by match a with | ⟨0, _⟩ => rfl | ⟨1, _⟩ => rfl, val_main_v39_apply, val_main_v37_apply, val_main_v38_apply,
    show idx_main_v37 (ix2 b k) = ix2 b (col2 k) from funext fun a => by match a with | ⟨0, _⟩ => rfl | ⟨1, _⟩ => rfl,
    show idx_main_v38 (ix2 b k) = ix2 b (col0 k) from funext fun a => by match a with | ⟨0, _⟩ => rfl | ⟨1, _⟩ => rfl, rowsum_user, rowsum_doc]
  rfl

/-- The reference's inner product of latent block `col2` of the ctx row sums with block `col1` of the doc row
    sums, at sample b. -/
theorem cross_ctx_doc (x1 : (⟨S16384x10x97, .f32⟩ : BufTy).Contents (Elt Ideal)) (x2 : (⟨S16384x20x97, .f32⟩ : BufTy).Contents (Elt Ideal)) (b : Fin 16384) :
    val_main_v45 (F := Ideal) x1 x2 (ix1 b)
      = cross (fun n k => x1 (ix3 b n (col2 k))) (fun n k => x2 (ix3 b n (col1 k))) := by
  rw [val_main_v45_apply, show val_main_cst_16 (F := Ideal) (Shape.Idx.first h_S_) = 0 from Ideal.ofBits_zero_f32, zero_add]
  refine Finset.sum_congr rfl fun k _ => ?_
  rw [show idx_main_v45 (ix1 b) k = ix2 b k from funext fun a => by match a with | ⟨0, _⟩ => rfl | ⟨1, _⟩ => rfl, val_main_v44_apply, val_main_v42_apply, val_main_v43_apply,
    show idx_main_v42 (ix2 b k) = ix2 b (col2 k) from funext fun a => by match a with | ⟨0, _⟩ => rfl | ⟨1, _⟩ => rfl,
    show idx_main_v43 (ix2 b k) = ix2 b (col1 k) from funext fun a => by match a with | ⟨0, _⟩ => rfl | ⟨1, _⟩ => rfl, rowsum_ctx, rowsum_doc]
  rfl

/-! ## The linear columns -/

/-- The reference's linear column of the user row sums at sample b (a one-column slice reshaped to a vector). -/
theorem lin_user (x0 : (⟨S16384x50x97, .f32⟩ : BufTy).Contents (Elt Ideal)) (b : Fin 16384) :
    val_main_v48 (F := Ideal) x0 (ix1 b) = ∑ n, x0 (ix3 b n colLin) := by
  rw [val_main_v48_apply, val_main_v47_apply,
    show idx_main_v47 (idx_main_v48 (ix1 b)) = ix2 b colLin from
      funext fun a => by match a with | ⟨0, _⟩ => exact Fin.ext (Nat.div_one _) | ⟨1, _⟩ => rfl,
    rowsum_user]

/-- The reference's linear column of the ctx row sums at sample b (a one-column slice reshaped to a vector). -/
theorem lin_ctx (x1 : (⟨S16384x10x97, .f32⟩ : BufTy).Contents (Elt Ideal)) (b : Fin 16384) :
    val_main_v51 (F := Ideal) x1 (ix1 b) = ∑ n, x1 (ix3 b n colLin) := by
  rw [val_main_v51_apply, val_main_v50_apply,
    show idx_main_v50 (idx_main_v51 (ix1 b)) = ix2 b colLin from
      funext fun a => by match a with | ⟨0, _⟩ => exact Fin.ext (Nat.div_one _) | ⟨1, _⟩ => rfl,
    rowsum_ctx]

/-- The reference's linear column of the doc row sums at sample b (a one-column slice reshaped to a vector). -/
theorem lin_doc (x2 : (⟨S16384x20x97, .f32⟩ : BufTy).Contents (Elt Ideal)) (b : Fin 16384) :
    val_main_v54 (F := Ideal) x2 (ix1 b) = ∑ n, x2 (ix3 b n colLin) := by
  rw [val_main_v54_apply, val_main_v53_apply,
    show idx_main_v53 (idx_main_v54 (ix1 b)) = ix2 b colLin from
      funext fun a => by match a with | ⟨0, _⟩ => exact Fin.ext (Nat.div_one _) | ⟨1, _⟩ => rfl,
    rowsum_doc]

/-! ## The result -/

/-- The f32 word 0x3F800000 is 1. -/
theorem one_word : Ideal.ofBits .f32 0x3F800000#32 = 1 := IdealRules.sign_bit.ideal_onePat .f32

/-- The reference's result is the stack of scores: at sample b the pre-activation is the score's, term by term in
    the same order, and 1 / (1 + exp (−z)) is the logistic of z. -/
theorem result_eq (x0 : (⟨S16384x50x97, .f32⟩ : BufTy).Contents (Elt Ideal)) (x1 : (⟨S16384x10x97, .f32⟩ : BufTy).Contents (Elt Ideal)) (x2 : (⟨S16384x20x97, .f32⟩ : BufTy).Contents (Elt Ideal)) :
    val_main_v61 (F := Ideal) x0 x1 x2 = scores (B := 16384) x0 x1 x2 := by
  funext i
  obtain ⟨b, rfl⟩ : ∃ b, i = ix1 b := ⟨i 0, eq_ix1 i⟩
  rw [scores_apply, val_main_v61_apply, val_main_v60_apply, val_main_v59_apply, val_main_v58_apply, val_main_v57_apply,
    val_main_v56_apply, val_main_v55_apply, val_main_v52_apply, val_main_v49_apply, val_main_v46_apply, val_main_v41_apply,
    val_main_v36_apply, val_main_v31_apply, val_main_v21_apply, fm_user, fm_ctx, fm_doc, cross_user_ctx, cross_user_doc,
    cross_ctx_doc, lin_user, lin_ctx, lin_doc]
  show Ideal.div (Ideal.ofBits .f32 0x3F800000#32) (Ideal.ofBits .f32 0x3F800000#32 + Ideal.exp (-_)) = _
  rw [one_word]
  rfl

end Cert.ReferenceIdeal.RefValue

end
-- ==== Proof.lean ====
/-
  A field-aware factorization machine's score, tiled over samples, against its whole-array form.

  Both programs take three stacks of feature tables — user [16384, 50, 97], ctx [16384, 10, 97], doc [16384, 20, 97] —
  and return, per sample, the logistic of: the three fields' second-order terms ½(‖Σ_n x_n‖² − Σ_n ‖x_n‖²) over their
  own 32 latent columns, the three inner products of latent blocks of the tables' row sums, and the row sums' linear
  column. The kernel does so 256 samples at a time on a grid of 64 points; the reference on the whole arrays.

  On the extended reals the two agree sample by sample with no hypothesis on the inputs: every difference between the
  two texts is a rearrangement of finite sums in a commutative monoid. The kernel adds the squares over the rows and
  then over the latent columns where the reference adds them over both axes at once (a double sum, exchanged); the
  reference's sums start from a zero word, which adds nothing; and the reference spells the logistic 1 / (1 + exp (−z)),
  which is the logistic of the ideal values by definition. The ½ is the same f32 word on both sides and is never
  evaluated.

  `Cert.FieldFM.scores` (Proof/Spec.lean) is the common value: the kernel's result array after its run
  (Proof/KernelBlock.lean at a row of a block, Proof/KernelArray.lean from the 64 blocks to the array) and the
  reference's result (Proof/RefValue.lean) are both it. The frames of the two kernel programs are the generated ones,
  the reference's frame is its generated run with the result dropped, and the idealization rewrote no operation.
-/
import proofs.«126563_j30408368456214_2_alg».proof.Defs
import proofs.«126563_j30408368456214_2_alg».proof.Proof.Gen.Kernel
import proofs.«126563_j30408368456214_2_alg».proof.Proof.Gen.Kernel.Skeleton
import proofs.«126563_j30408368456214_2_alg».proof.Proof.Gen.Kernel.Launch
import proofs.«126563_j30408368456214_2_alg».proof.Proof.Gen.Kernel.Points
import proofs.«126563_j30408368456214_2_alg».proof.Proof.Gen.Kernel.Frame
import proofs.«126563_j30408368456214_2_alg».proof.Proof.Gen.KernelIdeal
import proofs.«126563_j30408368456214_2_alg».proof.Proof.Gen.KernelIdeal.Skeleton
import proofs.«126563_j30408368456214_2_alg».proof.Proof.Gen.KernelIdeal.Launch
import proofs.«126563_j30408368456214_2_alg».proof.Proof.Gen.KernelIdeal.Points
import proofs.«126563_j30408368456214_2_alg».proof.Proof.Gen.KernelIdeal.Frame
import proofs.«126563_j30408368456214_2_alg».proof.Proof.Gen.ReferenceIdeal
import proofs.«126563_j30408368456214_2_alg».proof.Proof.Gen.Pre_finite_inputs
import proofs.«126563_j30408368456214_2_alg».proof.Proof.Gen.KernelIdeal.Value
import proofs.«126563_j30408368456214_2_alg».proof.Proof.Gen.ReferenceIdeal.Run
import proofs.«126563_j30408368456214_2_alg».proof.Proof.Gen.ReferenceIdeal.Read
import proofs.«126563_j30408368456214_2_alg».proof.Proof.Spec
import proofs.«126563_j30408368456214_2_alg».proof.Proof.LibAxisSums
import proofs.«126563_j30408368456214_2_alg».proof.Proof.KernelBlock
import proofs.«126563_j30408368456214_2_alg».proof.Proof.KernelArray
import proofs.«126563_j30408368456214_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three tables, both idealized programs end with the stack of scores of the
    kernel's tables as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
